-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S2x640000 : Shape := ⟨2, ![2, 640000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x512 .f32) (main_arg1 : FVec F S512x128 .f32) (main_arg2 : FVec F S128 .f32) (main_arg3 : FVec F S128x512 .f32) (main_arg4 : FVec F S512 .f32) (main_arg5 : FVec F S128 .f32) (main_arg6 : IVec S2x640000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_v13 main_v16
-- ==== Kernel.lean ====
abbrev S50000x512 : Shape := ⟨2, ![50000, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S2x640000 : Shape := ⟨2, ![2, 640000]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x1 : Shape := ⟨2, ![50000, 1]⟩
abbrev S1x128 : Shape := ⟨2, ![1, 128]⟩
abbrev S50000x128 : Shape := ⟨2, ![50000, 128]⟩
abbrev S2000x512 : Shape := ⟨2, ![2000, 512]⟩
abbrev S2000x1 : Shape := ⟨2, ![2000, 1]⟩
abbrev S2000x128 : Shape := ⟨2, ![2000, 128]⟩
abbrev S690000x128 : Shape := ⟨2, ![690000, 128]⟩
abbrev S1x512 : Shape := ⟨2, ![1, 512]⟩

abbrev nBuf : Space → Nat
  | .hbm => 47
  | .vmem => 17
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S128, .f32⟩
  | .hbm, ⟨6, _⟩ => ⟨S2x640000, .i32⟩
  | .hbm, ⟨7, _⟩ => ⟨S50000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128, .f32⟩
  | .hbm, ⟨29, _⟩ => ⟨S50000x128, .bf16⟩
  | .hbm, ⟨30, _⟩ => ⟨S_, .i32⟩
  | .hbm, ⟨31, _⟩ => ⟨S690000, .i32⟩
  | .hbm, ⟨32, _⟩ => ⟨S690000, .i1⟩
  | .hbm, ⟨33, _⟩ => ⟨S_, .i32⟩
  | .hbm, ⟨34, _⟩ => ⟨S690000, .i32⟩
  | .hbm, ⟨35, _⟩ => ⟨S690000, .i32⟩
  | .hbm, ⟨36, _⟩ => ⟨S690000, .i32⟩
  | .hbm, ⟨37, _⟩ => ⟨S690000x1, .i32⟩
  | .hbm, ⟨38, _⟩ => ⟨S690000x128, .bf16⟩
  | .hbm, ⟨39, _⟩ => ⟨S690000x128, .f32⟩
  | .hbm, ⟨40, _⟩ => ⟨S_, .f32⟩
  | .hbm, ⟨41, _⟩ => ⟨S50000x128, .f32⟩
  | .hbm, ⟨42, _⟩ => ⟨S690000x1, .i32⟩
  | .hbm, ⟨43, _⟩ => ⟨S50000x128, .f32⟩
  | .hbm, ⟨44, _⟩ => ⟨S1x128, .f32⟩
  | .hbm, ⟨45, _⟩ => ⟨S1x512, .f32⟩
  | .hbm, ⟨46, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S2000x128, .bf16⟩
  | .local _ .vmem, ⟨7, _⟩ => ⟨S2000x128, .bf16⟩
  | .local _ .vmem, ⟨8, _⟩ => ⟨S2000x128, .f32⟩
  | .local _ .vmem, ⟨9, _⟩ => ⟨S2000x128, .f32⟩
  | .local _ .vmem, ⟨10, _⟩ => ⟨S128x512, .f32⟩
  | .local _ .vmem, ⟨11, _⟩ => ⟨S1x512, .f32⟩
  | .local _ .vmem, ⟨12, _⟩ => ⟨S2000x1, .f32⟩
  | .local _ .vmem, ⟨13, _⟩ => ⟨S2000x1, .f32⟩
  | .local _ .vmem, ⟨14, _⟩ => ⟨S1x128, .f32⟩
  | .local _ .vmem, ⟨15, _⟩ => ⟨S2000x512, .f32⟩
  | .local _ .vmem, ⟨16, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  shapeCasts_S50000_S50000x1 : S50000.ShapeCasts S50000x1
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S512_S1x512 : S512.ShapeCasts S1x512
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  scatter_S50000_S690000x1_S690000_n_0_0_1_wf : ScatterDims.WF S50000 S690000x1 S690000 [] [0] [0] 1
  dot_S2000x512_S512x128_S2000x128_1_0_0_1_n_n_wf : DotDims.WF S2000x512 S512x128 S2000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S2x640000 : Shape := ⟨2, ![2, 640000]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S690000x1 : Shape := ⟨2, ![690000, 1]⟩
abbrev S690000x128 : Shape := ⟨2, ![690000, 128]⟩
abbrev S1x512 : Shape := ⟨2, ![1, 512]⟩

abbrev nBuf : Space → Nat
  | .hbm => 84
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S128, .f32⟩
  | .hbm, ⟨6, _⟩ => ⟨S2x640000, .i32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S50000x128, .f32⟩
  | .hbm, ⟨13, _⟩ => ⟨S50000x128, .f32⟩
  | .hbm, ⟨14, _⟩ => ⟨S50000, .i32⟩
  | .hbm, ⟨15, _⟩ => ⟨S1x640000, .i32⟩
  | .hbm, ⟨16, _⟩ => ⟨S640000, .i32⟩
  | .hbm, ⟨17, _⟩ => ⟨S690000, .i32⟩
  | .hbm, ⟨18, _⟩ => ⟨S1x640000, .i32⟩
  | .hbm, ⟨19, _⟩ => ⟨S640000, .i32⟩
  | .hbm, ⟨20, _⟩ => ⟨S690000, .i32⟩
  | .hbm, ⟨21, _⟩ => ⟨S_, .f32⟩
  | .hbm, ⟨22, _⟩ => ⟨S690000, .f32⟩
  | .hbm, ⟨23, _⟩ => ⟨S_, .f32⟩
  | .hbm, ⟨24, _⟩ => ⟨S50000, .f32⟩
  | .hbm, ⟨25, _⟩ => ⟨S690000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S690000, .i32⟩
  | .hbm, ⟨36, _⟩ => ⟨S690000, .i1⟩
  | .hbm, ⟨37, _⟩ => ⟨S_, .i32⟩
  | .hbm, ⟨38, _⟩ => ⟨S690000, .i32⟩
  | .hbm, ⟨39, _⟩ => ⟨S690000, .i32⟩
  | .hbm, ⟨40, _⟩ => ⟨S690000, .i32⟩
  | .hbm, ⟨41, _⟩ => ⟨S690000x1, .i32⟩
  | .hbm, ⟨42, _⟩ => ⟨S690000, .f32⟩
  | .hbm, ⟨43, _⟩ => ⟨S_, .i32⟩
  | .hbm, ⟨44, _⟩ => ⟨S690000, .i32⟩
  | .hbm, ⟨45, _⟩ => ⟨S690000, .i1⟩
  | .hbm, ⟨46, _⟩ => ⟨S_, .i32⟩
  | .hbm, ⟨47, _⟩ => ⟨S690000, .i32⟩
  | .hbm, ⟨48, _⟩ => ⟨S690000, .i32⟩
  | .hbm, ⟨49, _⟩ => ⟨S690000, .i32⟩
  | .hbm, ⟨50, _⟩ => ⟨S690000x1, .i32⟩
  | .hbm, ⟨51, _⟩ => ⟨S690000, .f32⟩
  | .hbm, ⟨52, _⟩ => ⟨S690000, .f32⟩
  | .hbm, ⟨53, _⟩ => ⟨S690000x1, .f32⟩
  | .hbm, ⟨54, _⟩ => ⟨S_, .i32⟩
  | .hbm, ⟨55, _⟩ => ⟨S690000, .i32⟩
  | .hbm, ⟨56, _⟩ => ⟨S690000, .i1⟩
  | .hbm, ⟨57, _⟩ => ⟨S_, .i32⟩
  | .hbm, ⟨58, _⟩ => ⟨S690000, .i32⟩
  | .hbm, ⟨59, _⟩ => ⟨S690000, .i32⟩
  | .hbm, ⟨60, _⟩ => ⟨S690000, .i32⟩
  | .hbm, ⟨61, _⟩ => ⟨S690000x1, .i32⟩
  | .hbm, ⟨62, _⟩ => ⟨S690000x128, .f32⟩
  | .hbm, ⟨63, _⟩ => ⟨S690000x128, .f32⟩
  | .hbm, ⟨64, _⟩ => ⟨S690000x128, .f32⟩
  | .hbm, ⟨65, _⟩ => ⟨S_, .f32⟩
  | .hbm, ⟨66, _⟩ => ⟨S50000x128, .f32⟩
  | .hbm, ⟨67, _⟩ => ⟨S690000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x512, .f32⟩
  | .hbm, ⟨73, _⟩ => ⟨S1x512, .f32⟩
  | .hbm, ⟨74, _⟩ => ⟨S50000x512, .f32⟩
  | .hbm, ⟨75, _⟩ => ⟨S50000x512, .f32⟩
  | .hbm, ⟨76, _⟩ => ⟨S50000x512, .f32⟩
  | .hbm, ⟨77, _⟩ => ⟨S50000x512, .f32⟩
  | .hbm, ⟨78, _⟩ => ⟨S_, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S50000x512, .f32⟩
  | .hbm, ⟨83, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  dot_S50000x512_S512x128_S50000x128_1_0_0_1_n_n_wf : DotDims.WF S50000x512 S512x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x512_S50000x512_1_0_0_1_n_n_wf : DotDims.WF S50000x128 S128x512 S50000x512 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf

class Facts : Prop extends Facts₀ where

variable [Facts]
-- ==== Proof.Spec.lean ====
/-
  The two programs as mathematics, at the ideal instance (floats are extended reals, operations exact).

  A graph layer over 50000 nodes: every node's features are encoded (a 512→128 linear map, a bias, a rectifier),
  each node then receives, from every edge that points at it, the sender's encoded row scaled by both ends'
  inverse square-root degrees, adds a bias, and is decoded (a 128→512 linear map, a bias, a logistic).

  The degrees `dinv`, the senders' start indices `ridx`, the receivers' raw indices `cidx` (what the
  accumulating scatter reads) and their sign-wrapped form `cnidx` (what a gather reads) are parameters here:
  both programs compute them by the same integer operations of the edge list.

  The kernel side scales by the receiver's factor AFTER summing the incoming rows (`outK`), the reference scales
  every incoming row BEFORE summing (`outR`). The two agree because a non-negative finite factor distributes
  over a sum of extended reals; that is Proof/Law.lean.
-/
import Idealize.ShloMosaic.PureOps.Ideal
import Idealize.ShloMosaic.Lib.ValueIdx

noncomputable section

namespace Cert.Gcn

open Idealize.ShloMosaic Idealize.ShloMosaic.ValueIdx

/-! ## Shapes (the literal shapes of both printed programs) -/
abbrev A50000 : Shape := ⟨1, ![50000]⟩
abbrev A128 : Shape := ⟨1, ![128]⟩
abbrev A512 : Shape := ⟨1, ![512]⟩
abbrev A50000x512 : Shape := ⟨2, ![50000, 512]⟩
abbrev A512x128 : Shape := ⟨2, ![512, 128]⟩
abbrev A128x512 : Shape := ⟨2, ![128, 512]⟩
abbrev A50000x128 : Shape := ⟨2, ![50000, 128]⟩
abbrev A690000 : Shape := ⟨1, ![690000]⟩
abbrev A690000x1 : Shape := ⟨2, ![690000, 1]⟩
abbrev A690000x128 : Shape := ⟨2, ![690000, 128]⟩

/-! ## The dimension numbers of the three indexed operations (the printed records' fields) -/

/-- Row gather: result row `e` is the operand's row at start index `idx[e, 0]`, all 128 columns. -/
def gd2 : GatherDims A50000x128 A690000x1 A690000x128 where
  offsetDims := [1]
  collapsedSliceDims := [0]
  operandBatchingDims := []
  startIndicesBatchingDims := []
  startIndexMap := [0]
  indexVectorDim := 1
  sliceSizes := ![1, 128]

/-- Element gather: result entry `e` is the operand's entry at start index `idx[e, 0]`. -/
def gd1 : GatherDims A50000 A690000x1 A690000 where
  offsetDims := []
  collapsedSliceDims := [0]
  operandBatchingDims := []
  startIndicesBatchingDims := []
  startIndexMap := [0]
  indexVectorDim := 1
  sliceSizes := ![1]

/-- Row scatter: update row `e` lands on the operand's row `idx[e, 0]`, column by column. -/
def sd2 : ScatterDims A50000x128 A690000x1 A690000x128 where
  updateWindowDims := [1]
  insertedWindowDims := [0]
  scatterDimsToOperandDims := [0]
  indexVectorDim := 1

/-- A buffer's contents read as an array of extended reals over a literal shape (the identity: it only fixes the type
    a printed buffer's contents are read at). -/
abbrev rd {s : Shape} (f : s.Idx → EReal) : s.Idx → EReal := f

/-- A start index word as a gather reads it: signed, negative values to 0, clamped to the last row. -/
def clampRow (w : BitVec 32) : Fin 50000 := ⟨min w.toInt.toNat 49999, by omega⟩

/-! ## The dense stages, one entry each -/

/-- One encoded entry: row `xrow` against column `q` of `W`, plus the bias entry, rectified. -/
def encv (xrow : Fin 512 → EReal) (W : A512x128.Idx → EReal) (b : EReal) (q : Fin 128) : EReal :=
  max ((∑ k : Fin 512, xrow k * W (ix2 k q)) + b) 0

/-- The encoded array. -/
def encA (x : A50000x512.Idx → EReal) (W : A512x128.Idx → EReal) (b : A128.Idx → EReal) : A50000x128.Idx → EReal :=
  fun y => encv (fun k => x (ix2 (y 0 : Fin 50000) k)) W (b (ix1 (y 1 : Fin 128))) (y 1 : Fin 128)

/-- One decoded entry: row `M` against column `p` of `Wd`, plus the bias entry, through the logistic. -/
def decv (M : Fin 128 → EReal) (Wd : A128x512.Idx → EReal) (b : EReal) (p : Fin 512) : EReal :=
  Ideal.logistic ((∑ k : Fin 128, M k * Wd (ix2 k p)) + b)

/-! ## The aggregated messages, the two ways -/

/-- Kernel side: every node's encoded row is scaled by its own factor first … -/
def hpA (E : A50000x128.Idx → EReal) (dinv : A50000.Idx → EReal) : A50000x128.Idx → EReal :=
  fun y => E y * dinv (ix1 (y 0 : Fin 50000))

/-- … the incoming rows are summed, and the sum is scaled by the receiver's factor; then the bias. -/
def msgK (E : A50000x128.Idx → EReal) (dinv : A50000.Idx → EReal) (gb : A128.Idx → EReal)
    (ridx cidx : IVec A690000x1 32) (n : Fin 50000) (k : Fin 128) : EReal :=
  Ideal.hostScatterAdd sd2 (fun _ => 0) cidx (Host.gather gd2 (hpA E dinv) ridx) (ix2 n k) * dinv (ix1 n) + gb (ix1 k)

/-- Reference side: one edge's factor, the product of its two ends' factors (each a gather of `dinv`) … -/
def normR (dinv : A50000.Idx → EReal) (ridx cnidx : IVec A690000x1 32) (e : Fin 690000) : EReal :=
  Host.gather gd1 dinv ridx (ix1 e) * Host.gather gd1 dinv cnidx (ix1 e)

/-- … scales the sender's encoded row before the sum; then the bias. -/
def msgR (E : A50000x128.Idx → EReal) (dinv : A50000.Idx → EReal) (gb : A128.Idx → EReal)
    (ridx cidx cnidx : IVec A690000x1 32) (n : Fin 50000) (k : Fin 128) : EReal :=
  Ideal.hostScatterAdd sd2 (fun _ => 0) cidx
      (fun j => normR dinv ridx cnidx (j 0 : Fin 690000) * Host.gather gd2 E ridx j) (ix2 n k) + gb (ix1 k)

/-! ## The results -/

/-- The kernel side's result entry `(n, p)`. -/
def outK (x : A50000x512.Idx → EReal) (We : A512x128.Idx → EReal) (be : A128.Idx → EReal) (Wd : A128x512.Idx → EReal)
    (bd : A512.Idx → EReal) (gb : A128.Idx → EReal) (dinv : A50000.Idx → EReal) (ridx cidx : IVec A690000x1 32)
    (n : Fin 50000) (p : Fin 512) : EReal :=
  decv (fun k => msgK (encA x We be) dinv gb ridx cidx n k) Wd (bd (ix1 p)) p

/-- The reference's result entry `(n, p)`. -/
def outR (x : A50000x512.Idx → EReal) (We : A512x128.Idx → EReal) (be : A128.Idx → EReal) (Wd : A128x512.Idx → EReal)
    (bd : A512.Idx → EReal) (gb : A128.Idx → EReal) (dinv : A50000.Idx → EReal) (ridx cidx cnidx : IVec A690000x1 32)
    (n : Fin 50000) (p : Fin 512) : EReal :=
  decv (fun k => msgR (encA x We be) dinv gb ridx cidx cnidx n k) Wd (bd (ix1 p)) p

end Cert.Gcn

end
-- ==== Proof.Law.lean ====
/-
  The laws behind the two ways of aggregating messages.

  Reading an indexed operation at one index: a row gather (or an element gather) at a column of start indices reads
  the operand at the start index taken signed and clamped into the operand's rows; an update of the accumulating
  row scatter lands on a given entry only if its start index, taken signed, IS that entry's row and its column is
  that entry's column.

  The inverse square-root degree as both programs select it (the reciprocal square root where the degree is
  positive, zero elsewhere) is a non-negative extended real other than +∞.

  With these, the two results agree entry by entry: multiplication by a non-negative finite factor distributes over
  any finite sum of extended reals, so scaling the sum of the incoming rows by the receiver's factor is the sum of
  the rows each scaled by it; and on the edges that land on a node the receiver read by the gather is that node.
-/
import proofs.«162178_j36464272343198_2_alg».proof.Proof.Spec

noncomputable section

open Idealize.ShloMosaic Idealize.ShloMosaic.ValueIdx

namespace Cert.Gcn

/-! ## The gathers read at an index -/

/-- The row gather at `(e, k)`: the operand at the row the start index `idx[e, 0]` names (signed, clamped), column `k`.
    On the row axis the slice has one row, so the start is clamped to the last row and nothing is added; on the
    column axis the start is 0 and the offset is the result's column. -/
theorem gather2_apply {α : Type} (x : A50000x128.Idx → α) (idx : IVec A690000x1 32) (e : Fin 690000) (k : Fin 128) :
    Host.gather gd2 x idx (ix2 e k) = x (ix2 (clampRow (idx (ix2 e 0))) k) := by
  unfold Host.gather
  congr 1
  funext a
  refine Fin.ext ?_
  show gd2.start (ix2 e k) idx a + gd2.batchCoord (ix2 e k) a + gd2.offCoord (ix2 e k) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gd2.startIndexMap from List.mem_singleton.mpr rfl)]
    have hsi : gd2.siIdx (ix2 e k) ⟨List.idxOf (0 : Fin 2) gd2.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (show (1 : Fin 2) ∉ gd2.startIndexMap from by decide)]
    simp only [Nat.zero_add]
    rfl

/-- The element gather at `e`: the operand at the entry the start index `idx[e, 0]` names (signed, clamped). -/
theorem gather1_apply {α : Type} (x : A50000.Idx → α) (idx : IVec A690000x1 32) (e : Fin 690000) :
    Host.gather gd1 x idx (ix1 e) = x (ix1 (clampRow (idx (ix2 e 0)))) := by
  unfold Host.gather
  congr 1
  funext a
  obtain rfl : a = (0 : Fin 1) := Subsingleton.elim _ _
  refine Fin.ext ?_
  show gd1.start (ix1 e) idx 0 + gd1.batchCoord (ix1 e) 0 + gd1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gd1.startIndexMap from List.mem_singleton.mpr rfl)]
  have hsi : gd1.siIdx (ix1 e) ⟨List.idxOf (0 : Fin 1) gd1.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Where an update of the row scatter lands -/

/-- If update `(e, k')` of the row scatter lands on entry `(n, k)` then its start index `idx[e, 0]`, taken signed, is
    `n`, and `k' = k`: the row axis is the one mapped axis (start = the index, no window), the column axis is the one
    window axis (start 0, window coordinate `k'`). -/
theorem scatter2_lands (idx : IVec A690000x1 32) (e : Fin 690000) (k' : Fin 128) (n : Fin 50000) (k : Fin 128)
    (h : sd2.resultIdx? (ix2 e k') idx = some (ix2 n k)) : (idx (ix2 e 0)).toInt = (n.val : Int) ∧ k' = k := by
  have hs0 : sd2.start (ix2 e k') idx (0 : Fin 2) = (idx (ix2 e 0)).toInt := by
    unfold ScatterDims.start
    rw [dif_pos (show (0 : Fin 2) ∈ sd2.scatterDimsToOperandDims from List.mem_singleton.mpr rfl)]
    have hsi : sd2.siIdx (ix2 e k') ⟨List.idxOf (0 : Fin 2) sd2.scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : sd2.window (ix2 e k') (0 : Fin 2) = 0 := by
    unfold ScatterDims.window
    rw [dif_neg (by decide)]
  have hs1 : sd2.start (ix2 e k') idx (1 : Fin 2) = 0 := by
    unfold ScatterDims.start
    rw [dif_neg (by decide)]
  have hw1 : sd2.window (ix2 e k') (1 : Fin 2) = k'.val := by
    unfold ScatterDims.window
    rw [dif_pos (by decide)]
    rfl
  unfold ScatterDims.resultIdx? at h
  split at h
  · rename_i hc
    have h' := Option.some.inj h
    have h0 := congrArg Fin.val (congrFun h' (0 : Fin 2))
    have h1 := congrArg Fin.val (congrFun h' (1 : Fin 2))
    have c0 := hc (0 : Fin 2)
    have c1 := hc (1 : Fin 2)
    simp only [hs0, hw0, hs1, hw1] at h0 h1 c0 c1
    change _ = n.val at h0
    change _ = k.val at h1
    refine ⟨?_, Fin.ext ?_⟩
    · have := c0.1; omega
    · omega
  · exact absurd h (by simp)

/-! ## The selected inverse square-root degree -/

/-- "the reciprocal square root of `d` where `d > 0`, else 0" is non-negative and is not `+∞`: for a positive real it is
    a real `(√d)⁻¹ ≥ 0`, at `+∞` it is 0, and everywhere else the selection takes 0. -/
theorem dinv_entry_ok (d z : EReal) (hz : z = 0) :
    0 ≤ Scalar.select (FloatOps.cmpf (F := Ideal) (φ := .f32) .ogt d z) (Ideal.rsqrt d) z
    ∧ Scalar.select (FloatOps.cmpf (F := Ideal) (φ := .f32) .ogt d z) (Ideal.rsqrt d) z ≠ ⊤ := by
  subst hz
  have hcmp : FloatOps.cmpf (F := Ideal) (φ := .f32) .ogt d 0 = BitVec.ofBool (decide ((0 : EReal) < d)) := rfl
  rw [hcmp]
  by_cases hd : (0 : EReal) < d
  · rw [decide_eq_true hd]
    have hsel : Scalar.select (BitVec.ofBool true) (Ideal.rsqrt d) (0 : EReal) = Ideal.rsqrt d := if_pos rfl
    rw [hsel]
    induction d using EReal.rec with
    | bot => exact absurd hd (by simp)
    | coe r =>
      have hr : 0 < r := by exact_mod_cast hd
      rw [Ideal.rsqrt_coe, if_neg (not_lt.mpr hr.le), if_neg hr.ne']
      exact ⟨by exact_mod_cast (inv_nonneg.mpr (Real.sqrt_nonneg r)), EReal.coe_ne_top _⟩
    | top => rw [Ideal.rsqrt_top]; exact ⟨le_refl _, EReal.zero_ne_top⟩
  · rw [decide_eq_false hd]
    have hsel : Scalar.select (BitVec.ofBool false) (Ideal.rsqrt d) (0 : EReal) = 0 := if_neg (by decide)
    rw [hsel]
    exact ⟨le_refl _, EReal.zero_ne_top⟩

/-! ## The two ways of aggregating agree -/

/-- Multiplying a finite sum of extended reals by a non-negative factor other than `+∞` multiplies every term. -/
theorem sum_mul_of_nonneg_of_ne_top {ι : Type} (s : Finset ι) (f : ι → EReal) (c : EReal) (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- A start index whose signed value is the node number `n` is read by a gather as `n`. -/
theorem clampRow_of_toInt (w : BitVec 32) (n : Fin 50000) (h : w.toInt = (n.val : Int)) : clampRow w = n := by
  refine Fin.ext ?_
  show min w.toInt.toNat 49999 = n.val
  have := n.isLt
  omega

/-- The scaled sums: the incoming rows (each already scaled by its sender's factor) summed and then scaled by the
    receiver's factor, against the rows each scaled by both factors and then summed. -/
theorem scatter_eq (E : A50000x128.Idx → EReal) (dinv : A50000.Idx → EReal)
    (ridx cidx cnidx : IVec A690000x1 32)
    (hd : ∀ n, 0 ≤ dinv n ∧ dinv n ≠ ⊤)
    (hcn : ∀ e : Fin 690000, 0 ≤ (cidx (ix2 e 0)).toInt → cnidx (ix2 e 0) = cidx (ix2 e 0))
    (n : Fin 50000) (k : Fin 128) :
    Ideal.hostScatterAdd sd2 (fun _ => 0) cidx (Host.gather gd2 (hpA E dinv) ridx) (ix2 n k) * dinv (ix1 n)
      = Ideal.hostScatterAdd sd2 (fun _ => 0) cidx
          (fun j => normR dinv ridx cnidx (j 0 : Fin 690000) * Host.gather gd2 E ridx j) (ix2 n k) := by
  unfold Ideal.hostScatterAdd
  simp only [zero_add]
  rw [sum_mul_of_nonneg_of_ne_top _ _ _ (hd (ix1 n)).1 (hd (ix1 n)).2]
  refine Finset.sum_congr rfl (fun j hj => ?_)
  obtain ⟨e, k', rfl⟩ : ∃ (e : Fin 690000) (k' : Fin 128), j = ix2 e k' := ⟨j 0, j 1, eq_ix2 j⟩
  have hj' := (Finset.mem_filter.mp hj).2
  obtain ⟨hc, rfl⟩ := scatter2_lands cidx e k' n k hj'
  have hcn' : cnidx (ix2 e 0) = cidx (ix2 e 0) := hcn e (by rw [hc]; exact Int.natCast_nonneg _)
  show Host.gather gd2 (hpA E dinv) ridx (ix2 e k') * dinv (ix1 n)
    = normR dinv ridx cnidx e * Host.gather gd2 E ridx (ix2 e k')
  unfold normR
  rw [gather2_apply, gather2_apply, gather1_apply, gather1_apply, hcn', clampRow_of_toInt _ n hc]
  show E (ix2 (clampRow (ridx (ix2 e 0))) k') * dinv (ix1 (clampRow (ridx (ix2 e 0)))) * dinv (ix1 n)
    = dinv (ix1 (clampRow (ridx (ix2 e 0)))) * dinv (ix1 n) * E (ix2 (clampRow (ridx (ix2 e 0))) k')
  rw [mul_assoc, mul_comm]

/-- The aggregated messages agree entry by entry. -/
theorem msg_eq (E : A50000x128.Idx → EReal) (dinv : A50000.Idx → EReal) (gb : A128.Idx → EReal)
    (ridx cidx cnidx : IVec A690000x1 32)
    (hd : ∀ n, 0 ≤ dinv n ∧ dinv n ≠ ⊤)
    (hcn : ∀ e : Fin 690000, 0 ≤ (cidx (ix2 e 0)).toInt → cnidx (ix2 e 0) = cidx (ix2 e 0))
    (n : Fin 50000) (k : Fin 128) :
    msgK E dinv gb ridx cidx n k = msgR E dinv gb ridx cidx cnidx n k := by
  unfold msgK msgR
  rw [scatter_eq E dinv ridx cidx cnidx hd hcn n k]

/-- The two results agree entry by entry: they decode the same aggregated row. -/
theorem out_eq (x : A50000x512.Idx → EReal) (We : A512x128.Idx → EReal) (be : A128.Idx → EReal) (Wd : A128x512.Idx → EReal)
    (bd : A512.Idx → EReal) (gb : A128.Idx → EReal) (dinv : A50000.Idx → EReal) (ridx cidx cnidx : IVec A690000x1 32)
    (hd : ∀ n, 0 ≤ dinv n ∧ dinv n ≠ ⊤)
    (hcn : ∀ e : Fin 690000, 0 ≤ (cidx (ix2 e 0)).toInt → cnidx (ix2 e 0) = cidx (ix2 e 0))
    (n : Fin 50000) (p : Fin 512) :
    outK x We be Wd bd gb dinv ridx cidx n p = outR x We be Wd bd gb dinv ridx cidx cnidx n p := by
  unfold outK outR
  have hm : (fun k => msgK (encA x We be) dinv gb ridx cidx n k)
      = (fun k => msgR (encA x We be) dinv gb ridx cidx cnidx n k) :=
    funext (fun k => msg_eq (encA x We be) dinv gb ridx cidx cnidx hd hcn n k)
  rw [hm]

end Cert.Gcn

end
-- ==== Proof.RefIs.lean ====
/-
  The reference program's result, entry by entry, as the specification's `outR`.

  The reference computes, from the edge list, the receivers' and the senders' node numbers (the edges' followed by one
  self loop per node), the degrees (a scatter-add of ones at the receivers), the inverse square-root degrees (zero
  where the degree is not positive), then encodes every node, scales every gathered sender row by the product of both
  ends' factors, scatter-adds the scaled rows at the receivers, adds a bias and decodes through the logistic, which
  the reference spells `1 / (1 + exp (-x))`.
-/
import proofs.«162178_j36464272343198_2_alg».proof.Proof.RefRead
import proofs.«162178_j36464272343198_2_alg».proof.Proof.Spec
import proofs.«162178_j36464272343198_2_alg».proof.Proof.Law
import Idealize.ShloMosaic.Lib.IdealHost

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem Cert.Gcn

/-- The receivers' node numbers, one per edge and then one per self loop. -/
def colv (ei : IVec S2x640000 32) : IVec S690000 32 :=
  concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0

/-- The senders' node numbers, one per edge and then one per self loop. -/
def rowv (ei : IVec S2x640000 32) : IVec S690000 32 :=
  concatenate S690000 0 [⟨S640000, (shapeCast _ (extractStridedSlice S1x640000 ![0, 0] ei slices_S2x640000_S1x640000_0_0) shapeCasts_S1x640000_S640000)⟩, ⟨S50000, (iotaInDim S50000 32 0)⟩] concatenates_S640000_S50000_S690000_d0

/-- A list of node numbers as a one-column index array, unchanged. -/
def raw (v : IVec S690000 32) : IVec S690000x1 32 := broadcastInDim S690000x1 ![0] bcast_S690000_S690000x1_0 v

/-- The same with every negative number wrapped by adding the node count. -/
def nrm (v : IVec S690000 32) : IVec S690000x1 32 :=
  broadcastInDim S690000x1 ![0] bcast_S690000_S690000x1_0 (select (cmpi .slt v (broadcastInDim S690000 ![] bcast_S_S690000 (constantI S_ 32 0#32))) (addi v (broadcastInDim S690000 ![] bcast_S_S690000 (constantI S_ 32 50000#32))) v)

/-- The degrees: ones accumulated at the receivers. -/
def degv (ei : IVec S2x640000 32) : FVec Ideal S50000 .f32 :=
  Host.scatterAdd scatter_S50000_S690000x1_S690000_n_0_0_1 (broadcastInDim S50000 ![] bcast_S_S50000 (constant S_ .f32 0x00000000#32)) (raw (colv ei)) (broadcastInDim S690000 ![] bcast_S_S690000 (constant S_ .f32 0x3F800000#32))

/-- The inverse square-root degrees, zero where the degree is not positive. -/
def dinvv (ei : IVec S2x640000 32) : FVec Ideal S50000 .f32 :=
  select (cmpf (F := Ideal) .ogt (degv ei) (broadcastInDim S50000 ![] bcast_S_S50000 (constant S_ .f32 0x00000000#32))) (Host.rsqrt (degv ei)) (broadcastInDim S50000 ![] bcast_S_S50000 (constant S_ .f32 0x00000000#32))

section Stages
variable (x0 : S50000x512.Idx → EReal) (x1 : S512x128.Idx → EReal) (x2 x5 : S128.Idx → EReal)
  (x3 : S128x512.Idx → EReal) (x4 : S512.Idx → EReal) (x6 : IVec S2x640000 32)

theorem v47_eq : val_main_v47 (F := Ideal) x6 = raw (colv x6) := rfl
theorem v42_eq : val_main_v42 (F := Ideal) x6 = nrm (rowv x6) := rfl
theorem v26_eq : val_main_v26 (F := Ideal) x6 = nrm (rowv x6) := rfl
theorem v33_eq : val_main_v33 (F := Ideal) x6 = nrm (colv x6) := rfl
theorem v20_eq : val_main_v20 (F := Ideal) x6 = dinvv x6 := rfl

theorem v46_eq : val_main_v46 (F := Ideal) = fun _ => (0 : EReal) := by
  funext i
  rw [val_main_v46_apply, val_main_cst_8_apply]
  exact Ideal.ofBits_zero_f32

theorem v4_eq : val_main_v4 (F := Ideal) x0 x1 x2 = encA x0 x1 x2 := by
  funext y
  rw [val_main_v4_apply, val_main_v3_apply, val_main_v0_apply, val_main_v2_apply, val_main_v1_apply,
    val_main_call0_v0_apply, val_main_call0_cst_apply]
  have hl : ∀ k : Fin 512, lidx_main_v0 y k = ix2 (y 0 : Fin 50000) k := fun k => funext fun a => by
    match a with | ⟨0, _⟩ => rfl | ⟨1, _⟩ => rfl
  have hr : ∀ k : Fin 512, ridx_main_v0 y k = ix2 k (y 1 : Fin 128) := fun k => funext fun a => by
    match a with | ⟨0, _⟩ => rfl | ⟨1, _⟩ => rfl
  have hb : idx_main_v1 (idx_main_v2 y) = ix1 (y 1 : Fin 128) := funext fun a => by
    match a with | ⟨0, _⟩ => rfl
  simp only [hl, hr, hb]
  show max (_ + _) (Ideal.ofBits .f32 0#32) = _
  rw [Ideal.ofBits_zero_f32]
  rfl

end Stages

section Stages2
variable (x0 : S50000x512.Idx → EReal) (x1 : S512x128.Idx → EReal) (x2 x5 : S128.Idx → EReal)
  (x3 : S128x512.Idx → EReal) (x4 : S512.Idx → EReal) (x6 : IVec S2x640000 32)

theorem g1_eq : gather_S50000_S690000x1_S690000_n_0_n_n_0_1_1 = gd1 := rfl
theorem g2_eq : gather_S50000x128_S690000x1_S690000x128_1_0_n_n_0_1_1128 = gd2 := rfl
theorem s2_eq : scatter_S50000x128_S690000x1_S690000x128_1_0_0_1 = sd2 := rfl

theorem v45_eq : val_main_v45 (F := Ideal) x0 x1 x2 x6
    = fun j => normR (dinvv x6) (nrm (rowv x6)) (nrm (colv x6)) (j 0 : Fin 690000)
        * Host.gather gd2 (encA x0 x1 x2) (nrm (rowv x6)) j := by
  funext j
  rw [val_main_v45_apply, val_main_v44_apply, val_main_v36_apply, val_main_v35_apply]
  have hi : idx_main_v36 (idx_main_v44 j) = ix1 (j 0 : Fin 690000) := funext fun a => by
    match a with | ⟨0, _⟩ => rfl
  rw [hi]
  unfold val_main_v27 val_main_v34 val_main_v43 normR
  rw [v20_eq, v26_eq, v33_eq, v42_eq, v4_eq, g1_eq, g2_eq]
  rfl

theorem v48_eq : val_main_v48 (F := Ideal) x0 x1 x2 x6
    = Ideal.hostScatterAdd sd2 (fun _ => 0) (raw (colv x6))
        (fun j => normR (dinvv x6) (nrm (rowv x6)) (nrm (colv x6)) (j 0 : Fin 690000)
          * Host.gather gd2 (encA x0 x1 x2) (nrm (rowv x6)) j) := by
  unfold val_main_v48
  rw [v46_eq, v47_eq, v45_eq, s2_eq]
  rfl

theorem v51_eq (n : Fin 50000) (k : Fin 128) : val_main_v51 (F := Ideal) x0 x1 x2 x5 x6 (ix2 n k)
    = msgR (encA x0 x1 x2) (dinvv x6) x5 (nrm (rowv x6)) (raw (colv x6)) (nrm (colv x6)) n k := by
  rw [val_main_v51_apply, val_main_v50_apply, val_main_v49_apply, v48_eq]
  have hb : idx_main_v49 (idx_main_v50 (ix2 n k)) = ix1 k := funext fun a => by
    match a with | ⟨0, _⟩ => rfl
  rw [hb]
  rfl

end Stages2

theorem ref_value (m : (ℓ : Loc nD τ sig) → Buf (Elt Ideal) ℓ) (c : Dev nD) (n : Fin 50000) (p : Fin 512) :
    rd (s := S50000x512) (Cert.ReferenceIdeal.ValueP.res_main_v61 (F := Ideal) m c) (ix2 n p)
      = outR (rd (s := S50000x512) (m ((c.tc : Thread nD τ).loc main_arg0))) (rd (s := S512x128) (m ((c.tc : Thread nD τ).loc main_arg1))) (rd (s := S128) (m ((c.tc : Thread nD τ).loc main_arg2))) (rd (s := S128x512) (m ((c.tc : Thread nD τ).loc main_arg3))) (rd (s := S512) (m ((c.tc : Thread nD τ).loc main_arg4))) (rd (s := S128) (m ((c.tc : Thread nD τ).loc main_arg5)))
          (dinvv (m ((c.tc : Thread nD τ).loc main_arg6))) (nrm (rowv (m ((c.tc : Thread nD τ).loc main_arg6)))) (raw (colv (m ((c.tc : Thread nD τ).loc main_arg6)))) (nrm (colv (m ((c.tc : Thread nD τ).loc main_arg6)))) n p := by
  rw [val_main_v61_eq]
  show val_main_v61 (F := Ideal) _ _ _ _ _ _ _ (ix2 n p) = _
  rw [val_main_v61_apply, val_main_v60_apply, val_main_cst_10_apply, val_main_v59_apply, val_main_v58_apply,
    val_main_cst_9_apply, val_main_v57_apply, val_main_v56_apply, val_main_v55_apply, val_main_v54_apply,
    val_main_v53_apply, val_main_v52_apply]
  have hl : ∀ k : Fin 128, lidx_main_v52 (ix2 n p) k = ix2 n k := fun k => funext fun a => by
    match a with | ⟨0, _⟩ => rfl | ⟨1, _⟩ => rfl
  have hr : ∀ k : Fin 128, ridx_main_v52 (ix2 n p) k = ix2 k p := fun k => funext fun a => by
    match a with | ⟨0, _⟩ => rfl | ⟨1, _⟩ => rfl
  have hb : idx_main_v53 (idx_main_v54 (ix2 n p)) = ix1 p := funext fun a => by
    match a with | ⟨0, _⟩ => rfl
  simp only [hl, hr, hb, v51_eq]
  unfold outR decv Ideal.logistic
  simp only [Ideal.hostDivf_def, Ideal.addf_def, Ideal.ofBits_def, Ideal.hostUnary_exp_def, Ideal.hostNegf_def,
    Ideal.negf_def, Ideal.ofBits_one_f32]

theorem nrm_raw (v : IVec S690000 32) (e : Fin 690000) : 0 ≤ (raw v (ix2 e 0)).toInt → nrm v (ix2 e 0) = raw v (ix2 e 0) := by
  intro h
  have hr : ∀ w : IVec S690000 32, raw w (ix2 e 0) = w (ix1 e) := fun w => by
    unfold raw
    exact broadcastInDim_apply _ bcast_S690000_S690000x1_0 w (ix2 e 0) (ix1 e) (fun a => match a with
      | ⟨0, _⟩ => by show e.val = if (690000 : Nat) = 1 then 0 else e.val; rw [if_neg (by decide)])
  rw [hr] at h ⊢
  unfold nrm
  rw [← raw, hr]
  show Scalar.select (IntOp.cmpi .slt (v (ix1 e))
      (broadcastInDim S690000 ![] bcast_S_S690000 (constantI S_ 32 0#32) (ix1 e))) _ (v (ix1 e)) = v (ix1 e)
  rw [broadcastInDim_scalar_apply]
  show Scalar.select (IntOp.cmpi .slt (v (ix1 e)) 0#32) _ (v (ix1 e)) = v (ix1 e)
  have h0 : (v (ix1 e)).slt 0#32 = false := by
    unfold BitVec.slt
    rw [decide_eq_false_iff_not]
    have hz : (0#32 : BitVec 32).toInt = 0 := by decide
    omega
  have hs : IntOp.cmpi .slt (v (ix1 e)) 0#32 = 0#1 := by
    unfold IntOp.cmpi
    show BitVec.ofBool ((v (ix1 e)).slt 0#32) = 0#1
    rw [h0]; rfl
  rw [hs, select_zero]

theorem dinvv_ok (ei : IVec S2x640000 32) (n : S50000.Idx) : 0 ≤ dinvv ei n ∧ dinvv ei n ≠ ⊤ := by
  unfold dinvv
  have hrs : ∀ (x : FVec Ideal S50000 .f32) (i : S50000.Idx), Host.rsqrt x i = Ideal.rsqrt (x i) := fun _ _ => rfl
  rw [select_apply, cmpf_apply, broadcastInDim_scalar_apply, hrs]
  generalize degv ei n = d
  generalize hz : constant (F := Ideal) S_ FTy.f32 (0#32) ix0 = z
  exact dinv_entry_ok d z (by rw [← hz, constant_apply]; exact Ideal.ofBits_zero_f32)

end Cert.ReferenceIdeal.RefValue

end
-- ==== Proof.KRun.lean ====
/-
  The idealized kernel program's run with its RESULT named.

  The program is six segments: three stretches of host operations (the edge list's rows, the degrees and their
  inverse square roots, the two reshapes), the encoder's grid of 25 row blocks, a stretch of host operations (the
  gather of the senders' rows and the accumulating scatter onto the receivers), and the decoder's grid of 25 row
  blocks. Every weakly fair execution runs the segments in order; at the end every buffer that outlives the run
  holds the contents the segments' fold `Gen.W6` gives it. The frame statement keeps of this only that the seven
  arguments are as launched; here the result buffer is kept as well, at `Gen.W6 … main_v32`: the decoder's output
  array after its 25 write-backs. What that array is, entry by entry, is Proof/KValue.lean.
-/
import proofs.«162178_j36464272343198_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting;
    the result buffer then holds what the segments' fold leaves there, and the seven arguments are as launched. -/
theorem run_named : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KRun

end
-- ==== Proof.LibKeepdims.lean ====
/-
  Three index readings that every row-normalising body meets: a vector `[a]` viewed as a column `[a, 1]`,
  a column `[a, 1]` broadcast along the rows of `[a, b]`, and a sum over the second axis of `[a, b]` read at
  row `p` as the plain sum over the row's entries.
-/
import Idealize.ShloMosaic.Lib.ValueIdx
import Idealize.ShloMosaic.Lib.Pipeline.Value
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum over the second axis of an `[a, b]` vector, read at row `p`, is the sum
    of the row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun d => Fin.ext ?_)
  match d with
  | ⟨0, _⟩ => rfl
  | ⟨1, _⟩ => rfl

end Cert.LibKeepdims

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.Enc.lean ====
/-
  The first region's result, in closed form. The region walks the 50000 rows of the feature array in 25 blocks of 2000 rows;
  on each block it multiplies the rows by the whole weight matrix, adds the bias row, takes the maximum with 0 and scales every
  row by that row's factor. Read entry by entry, the array it leaves is one function of the four arrays it starts from:
  entry (n, q) is the encoded entry of row n and column q times the factor of row n.
-/
import proofs.«162178_j36464272343198_2_alg».proof.Proof.Gen.KernelIdeal.Frame
import proofs.«162178_j36464272343198_2_alg».proof.Proof.Spec
import proofs.«162178_j36464272343198_2_alg».proof.Proof.LibPlain
import Idealize.ShloMosaic.Lib.ValueLayout

noncomputable section

open Idealize.ShloMosaic Idealize.ShloMosaic.TcCoe Idealize.ShloMosaic.ValueIdx Idealize.SL.Sem Cert.Gcn

namespace Cert.KernelIdeal.RegionValue
open Cert.KernelIdeal Cert.KernelIdeal.Gen

/-! The first region's output array as ONE function of the buffers it starts from: row `n`, column `q` is the
    encoded entry (row `n` of the features against column `q` of the weights, plus the bias, rectified) times the
    row's scale factor. -/

/-- The generated contraction record is the plain `[M,K] × [K,N]` one. -/
theorem dot0_eq : dot_S2000x512_S512x128_S2000x128_1_0_0_1_n_n = DotDims.plain 2000 512 128 := rfl

/-- The body's arithmetic on one block, read at row `p`, column `q` of the block. -/
theorem enc_pay (x0 : Vec Ideal S2000x512 .f32) (x1 : Vec Ideal S512x128 .f32) (x2 : Vec Ideal S1x128 .f32)
    (x3 : Vec Ideal S2000x1 .f32) (p : Fin 2000) (q : Fin 128) :
    k0_pay1 x0 x1 x2 x3 (ix2 p q) = encv (fun k => x0 (ix2 p k)) x1 (x2 (ix2 0 q)) q * x3 (ix2 p 0) := by
  have hmm : (matmul dot_S2000x512_S512x128_S2000x128_1_0_0_1_n_n none (truncf .bf16 x0 bitsLt_bf16_f32) (truncf .bf16 x1 bitsLt_bf16_f32)
      (constant S2000x128 .f32 0x00000000#32) : FVec Ideal S2000x128 .f32) (ix2 p q) = ∑ k : Fin 512, x0 (ix2 p k) * x1 (ix2 k q) := by
    rw [dot0_eq]
    exact Ideal.matmul_plain_zero_apply none _ _ p q
  have hb : broadcastTo S2000x128 (shapeCast S1x128 x2 shapeCasts_S1x128_S1x128) broadcasts_S1x128_S2000x128 (ix2 p q) = x2 (ix2 0 q) := by
    rw [shapeCast_self]
    exact broadcastTo_1b_ab_apply x2 _ p q
  have hc : broadcastTo S2000x128 (shapeCast S2000x1 x3 shapeCasts_S2000x1_S2000x1) broadcasts_S2000x1_S2000x128 (ix2 p q) = x3 (ix2 p 0) := by
    rw [shapeCast_self]
    exact broadcastTo_col x3 _ p q
  unfold k0_pay1 encv
  show max (_ + _) (Ideal.ofBits .f32 0x00000000#32) * _ = _
  rw [hmm, hb, hc, Ideal.ofBits_zero_f32]

/-- The whole output array as a function of the four input arrays. -/
def encScaled (A : S50000x512.Idx → EReal) (W : S512x128.Idx → EReal) (b : S1x128.Idx → EReal) (d : S50000x1.Idx → EReal) :
    S50000x128.Idx → EReal :=
  fun i => encv (fun k => A (ix2 (i 0 : Fin 50000) k)) W (b (ix2 0 (i 1 : Fin 128))) (i 1 : Fin 128) * d (ix2 (i 0 : Fin 50000) 0)

/-- An entry computed from pieces that are the arrays' entries at row `n`, column `q` is that function's value there. -/
theorem encScaled_of (A : S50000x512.Idx → EReal) (W : S512x128.Idx → EReal) (b : S1x128.Idx → EReal) (d : S50000x1.Idx → EReal)
    (f : Fin 512 → EReal) (W' : S512x128.Idx → EReal) (b' d' : EReal) (i : S50000x128.Idx) (n : Fin 50000) (q : Fin 128)
    (hi : i = ix2 n q) (hf : ∀ k, f k = A (ix2 n k)) (hW : W' = W) (hb : b' = b (ix2 0 q)) (hd : d' = d (ix2 n 0)) :
    encv f W' b' q * d' = encScaled A W b d i := by
  subst hi hW hb hd
  rw [funext hf]
  rfl

theorem zero_offsets0 : (![0, 0] : Fin 2 → Nat) = fun _ => 0 := funext fun a => by fin_cases a <;> rfl

/-- The block indices of the five windows at every grid point: the row blocks move with the point, the rest stay. -/
theorem idx0 : ∀ t : Fin cfg0.N, t.val < 25
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b)) (c : Dev nD)

/-- The feature block at point `t`: rows `2000 t … 2000 t + 1999` of the feature array. -/
theorem blk0_0 (t : Fin cfg0.N) (p : Fin 2000) (k : Fin 512) (n : Fin 50000) (hn : n.val = t.val * 2000 + p.val) :
    (iblk0 (F := Ideal) V c 0 t : Vec Ideal S2000x512 .f32) (ix2 p k) = rd (s := S50000x512) (V c main_arg0) (ix2 n k) := by
  obtain ⟨_, e0, e1, _⟩ := idx0 t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 2000 + 1 * p.val = n.val; omega
  | ⟨1, _⟩ => show win0_0.index t (1 : Fin 2) * 512 + 1 * k.val = k.val; omega

/-- The weight block is the whole weight array. -/
theorem blk0_1 (t : Fin cfg0.N) : (iblk0 (F := Ideal) V c 1 t : Vec Ideal S512x128 .f32) = rd (s := S512x128) (V c main_arg1) := by
  obtain ⟨_, _, _, e0, e1, _⟩ := idx0 t
  funext y
  show V c main_arg1 (((cfg0.win 1).blk t).view.emb y) = V c main_arg1 y
  refine congrArg (V c main_arg1) (funext fun a => Fin.ext ?_)
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- The bias block is the whole bias row. -/
theorem blk0_2 (t : Fin cfg0.N) (q : Fin 128) :
    (iblk0 (F := Ideal) V c 2 t : Vec Ideal S1x128 .f32) (ix2 0 q) = rd (s := S1x128) (V c main_v17) (ix2 0 q) := by
  obtain ⟨_, _, _, _, _, e0, e1, _⟩ := idx0 t
  show V c main_v17 (((cfg0.win 2).blk t).view.emb (ix2 0 q)) = V c main_v17 (ix2 0 q)
  refine congrArg (V c main_v17) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The scale block at point `t`: rows `2000 t … 2000 t + 1999` of the scale column. -/
theorem blk0_3 (t : Fin cfg0.N) (p : Fin 2000) (n : Fin 50000) (hn : n.val = t.val * 2000 + p.val) :
    (iblk0 (F := Ideal) V c 3 t : Vec Ideal S2000x1 .f32) (ix2 p 0) = rd (s := S50000x1) (V c main_v16) (ix2 n 0) := by
  obtain ⟨_, _, _, _, _, _, _, e0, e1, _⟩ := idx0 t
  show V c main_v16 (((cfg0.win 3).blk t).view.emb (ix2 p 0)) = V c main_v16 (ix2 n 0)
  refine congrArg (V c main_v16) (funext fun a => Fin.ext ?_)
  match a with
  | ⟨0, _⟩ => show win0_3.index t (0 : Fin 2) * 2000 + 1 * p.val = n.val; omega
  | ⟨1, _⟩ => show win0_3.index t (1 : Fin 2) * 1 + 1 * 0 = 0; omega

/-- WHAT POINT `t` WRITES BACK is block `t` of that function of the region's starting buffers. -/
theorem flushed0_eq (t : Fin cfg0.N) :
    (dat0 (F := Ideal) V c).flushed 4 t = ((cfg0.win 4).blk t).view.read (Elt Ideal)
      (encScaled (V c main_arg0) (V c main_arg1) (V c main_v17) (V c main_v16)) := by
  show (cfg0.win 4).cut (grid0.coords t) ((dat0 V c).after 4 t) = _
  rw [after0_4]
  unfold out0_4
  rw [View.canon_unit_zero zero_offsets0]
  simp only [View.ld_unit_zero (S := S2000x512) zero_offsets0, View.ld_unit_zero (S := S512x128) zero_offsets0, View.ld_unit_zero (S := S1x128) zero_offsets0,
    View.ld_unit_zero (S := S2000x1) zero_offsets0]
  obtain ⟨ht, _, _, _, _, _, _, _, _, e0, e1⟩ := idx0 t
  refine funext (α := S2000x128.Idx) fun j => ?_
  obtain ⟨p, q, rfl⟩ : ∃ (p : Fin 2000) (q : Fin 128), j = ix2 p q := ⟨j 0, j 1, eq_ix2 j⟩
  have hn : t.val * 2000 + p.val < 50000 := by have := p.isLt; omega
  refine (enc_pay (iblk0 V c 0 t) (iblk0 V c 1 t) (iblk0 V c 2 t) (iblk0 V c 3 t) p q).trans ?_
  refine encScaled_of (V c main_arg0) (V c main_arg1) (V c main_v17) (V c main_v16) _ _ _ _
    (((cfg0.win 4).blk t).view.emb (ix2 p q)) ⟨t.val * 2000 + p.val, hn⟩ q ?_
    (fun k => blk0_0 V c t p k _ rfl) (blk0_1 V c t) (blk0_2 V c t q) (blk0_3 V c t p _ rfl)
  funext a
  apply Fin.ext
  match a with
  | ⟨0, _⟩ => show win0_4.index t (0 : Fin 2) * 2000 + 1 * p.val = t.val * 2000 + p.val; omega
  | ⟨1, _⟩ => show win0_4.index t (1 : Fin 2) * 128 + 1 * q.val = q.val; omega

/-- An index of the output array is in point `t`'s block iff each coordinate is in the block's range on its axis. -/
theorem mem_blk0 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v18).slice (win0_4.rect t)).set ↔ _
  rw [View.set_slice_whole, Rect.mem_set_unit]
  exact Iff.rfl

/-- Every index of the output array is in some point's block: row `r` in the block of point `r / 2000`. -/
theorem cover0 (i : S50000x128.Idx) : ∃ t : Fin cfg0.N, (cfg0.win 4).flush t = true ∧ i ∈ ((cfg0.win 4).blk t).view.set := by
  have h0 : (i 0).val < 50000 := (i 0).isLt
  have h1 : (i 1).val < 128 := (i 1).isLt
  have hlt : (i 0).val / 2000 < cfg0.N := by show (i 0).val / 2000 < 25; omega
  obtain ⟨_, _, _, _, _, _, _, _, _, e0, e1⟩ := idx0 ⟨(i 0).val / 2000, hlt⟩
  refine ⟨⟨(i 0).val / 2000, hlt⟩, flush0_4 _, ?_⟩
  rw [mem_blk0]
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, hlt⟩ (1 : Fin 2) * 128 ≤ (i 1).val ∧ (i 1).val < win0_4.index ⟨(i 0).val / 2000, hlt⟩ (1 : Fin 2) * 128 + 128
    rw [e1]; omega

/-- THE ARRAY after the region: that function of the region's starting buffers, everywhere. -/
theorem final0 : (dat0 (F := Ideal) V c).arrAt 4 cfg0.N = encScaled (V c main_arg0) (V c main_arg1) (V c main_v17) (V c main_v16) :=
  (dat0 (F := Ideal) V c).arrAt_eq_of_cover 4 (encScaled (V c main_arg0) (V c main_arg1) (V c main_v17) (V c main_v16))
    (fun t _ => flushed0_eq V c t) cover0

/-- The first region's output, entry by entry: the encoded entry times the row's scale factor. -/
theorem region0_value (n : Fin 50000) (q : Fin 128) :
    rd (s := S50000x128) ((dat0 (F := Ideal) V c).arrAt 4 cfg0.N) (ix2 n q)
      = encv (fun k => (rd (s := S50000x512) (V c main_arg0)) (ix2 n k)) (rd (s := S512x128) (V c main_arg1))
          ((rd (s := S1x128) (V c main_v17)) (ix2 0 q)) q
        * (rd (s := S50000x1) (V c main_v16)) (ix2 n 0) :=
  congrFun (final0 V c) (ix2 n q)

end Cert.KernelIdeal.RegionValue

end
-- ==== Proof.Dec.lean ====
/-
  The second region's result, in closed form. The region walks the 50000 rows of the summed-messages array in 25 blocks of
  2000 rows; on each block it scales every row by that row's factor, adds the first bias row, multiplies the rows by the whole
  second weight matrix, adds the second bias row and applies the logistic. Read entry by entry, the array it leaves is one
  function of the five arrays it starts from: entry (n, p) is the decoded entry of the scaled-and-shifted row n against column p.
-/
import proofs.«162178_j36464272343198_2_alg».proof.Proof.Gen.KernelIdeal.Frame
import proofs.«162178_j36464272343198_2_alg».proof.Proof.Spec
import proofs.«162178_j36464272343198_2_alg».proof.Proof.LibPlain
import Idealize.ShloMosaic.Lib.ValueLayout

noncomputable section

open Idealize.ShloMosaic Idealize.ShloMosaic.TcCoe Idealize.ShloMosaic.ValueIdx Idealize.SL.Sem Cert.Gcn

namespace Cert.KernelIdeal.RegionValue
open Cert.KernelIdeal Cert.KernelIdeal.Gen

/-- The generated contraction record is the plain `[M,K] × [K,N]` one. -/
theorem dot1_eq : dot_S2000x128_S128x512_S2000x512_1_0_0_1_n_n = DotDims.plain 2000 128 512 := rfl

/-- The body's arithmetic on one block, read at row `r`, column `p` of the block: the block's row is scaled by the row's
    factor and shifted by the bias row, multiplied against column `p` of the weights, shifted by the second bias, and sent
    through the logistic. -/
theorem dec_pay (x0 : Vec Ideal S2000x128 .f32) (x2 : Vec Ideal S2000x1 .f32) (x6 : Vec Ideal S1x128 .f32)
    (x11 : Vec Ideal S128x512 .f32) (x14 : Vec Ideal S1x512 .f32) (r : Fin 2000) (p : Fin 512) :
    k1_pay1 x0 x2 x6 x11 x14 (ix2 r p)
      = decv (fun k => x0 (ix2 r k) * x2 (ix2 r 0) + x6 (ix2 0 k)) x11 (x14 (ix2 0 p)) p := by
  unfold k1_pay1 decv
  show Ideal.logistic ((matmul dot_S2000x128_S128x512_S2000x512_1_0_0_1_n_n none _ _ (constant S2000x512 .f32 0x00000000#32)
      : FVec Ideal S2000x512 .f32) (ix2 r p) + broadcastTo S2000x512 (shapeCast S1x512 x14 shapeCasts_S1x512_S1x512) broadcasts_S1x512_S2000x512 (ix2 r p)) = _
  rw [dot1_eq]
  refine congrArg Ideal.logistic (congrArg₂ (· + ·) ?_ ?_)
  · refine (Ideal.matmul_plain_zero_apply none _ _ r p).trans (Finset.sum_congr rfl fun k _ => ?_)
    show (shapeCast S2000x128 x0 shapeCasts_S2000x128_S2000x128 (ix2 r k)
        * broadcastTo S2000x128 (shapeCast S2000x1 x2 shapeCasts_S2000x1_S2000x1) broadcasts_S2000x1_S2000x128 (ix2 r k)
        + broadcastTo S2000x128 (shapeCast S1x128 x6 shapeCasts_S1x128_S1x128) broadcasts_S1x128_S2000x128 (ix2 r k)) * x11 (ix2 k p) = _
    rw [shapeCast_self, shapeCast_self, shapeCast_self, broadcastTo_col x2 _ r k, broadcastTo_1b_ab_apply x6 _ r k]
  · rw [shapeCast_self]
    exact broadcastTo_1b_ab_apply x14 _ r p

/-- The whole output array as a function of the five input arrays. -/
def decOut (S : S50000x128.Idx → EReal) (Wd : S128x512.Idx → EReal) (bd : S1x512.Idx → EReal) (d : S50000x1.Idx → EReal)
    (gb : S1x128.Idx → EReal) : S50000x512.Idx → EReal :=
  fun i => decv (fun k => S (ix2 (i 0 : Fin 50000) k) * d (ix2 (i 0 : Fin 50000) 0) + gb (ix2 0 k)) Wd
    (bd (ix2 0 (i 1 : Fin 512))) (i 1 : Fin 512)

/-- An entry computed from pieces that are the arrays' entries at row `n`, column `p` is that function's value there. -/
theorem decOut_of (S : S50000x128.Idx → EReal) (Wd : S128x512.Idx → EReal) (bd : S1x512.Idx → EReal) (d : S50000x1.Idx → EReal)
    (gb : S1x128.Idx → EReal) (f : Fin 128 → EReal) (W' : S128x512.Idx → EReal) (b' : EReal) (i : S50000x512.Idx)
    (n : Fin 50000) (p : Fin 512) (hi : i = ix2 n p) (hf : ∀ k, f k = S (ix2 n k) * d (ix2 n 0) + gb (ix2 0 k))
    (hW : W' = Wd) (hb : b' = bd (ix2 0 p)) :
    decv f W' b' p = decOut S Wd bd d gb i := by
  subst hi hW hb
  rw [funext hf]
  rfl

theorem zero_offsets1 : (![0, 0] : Fin 2 → Nat) = fun _ => 0 := funext fun a => by fin_cases a <;> rfl

/-- The block indices of the six windows at every grid point: the row blocks move with the point, the rest stay. -/
theorem idx1 : ∀ t : Fin cfg1.N, t.val < 25
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- The summed-rows block at point `t`: rows `2000 t … 2000 t + 1999` of that array. -/
theorem blk1_0 (t : Fin cfg1.N) (r : Fin 2000) (k : Fin 128) (n : Fin 50000) (hn : n.val = t.val * 2000 + r.val) :
    (iblk1 (F := Ideal) V c 0 t : Vec Ideal S2000x128 .f32) (ix2 r k) = rd (s := S50000x128) (V c main_v29) (ix2 n k) := by
  obtain ⟨_, e0, e1, _⟩ := idx1 t
  show V c main_v29 (((cfg1.win 0).blk t).view.emb (ix2 r k)) = V c main_v29 (ix2 n k)
  refine congrArg (V c main_v29) (funext fun a => Fin.ext ?_)
  match a with
  | ⟨0, _⟩ => show win1_0.index t (0 : Fin 2) * 2000 + 1 * r.val = n.val; omega
  | ⟨1, _⟩ => show win1_0.index t (1 : Fin 2) * 128 + 1 * k.val = k.val; omega

/-- The weight block is the whole weight array. -/
theorem blk1_1 (t : Fin cfg1.N) : (iblk1 (F := Ideal) V c 1 t : Vec Ideal S128x512 .f32) = rd (s := S128x512) (V c main_arg3) := by
  obtain ⟨_, _, _, e0, e1, _⟩ := idx1 t
  funext y
  show V c main_arg3 (((cfg1.win 1).blk t).view.emb y) = V c main_arg3 y
  refine congrArg (V c main_arg3) (funext fun a => Fin.ext ?_)
  match a with
  | ⟨0, _⟩ => show win1_1.index t (0 : Fin 2) * 128 + 1 * (y 0).val = (y 0).val; omega
  | ⟨1, _⟩ => show win1_1.index t (1 : Fin 2) * 512 + 1 * (y 1).val = (y 1).val; omega

/-- The second bias block is the whole bias row. -/
theorem blk1_2 (t : Fin cfg1.N) (p : Fin 512) :
    (iblk1 (F := Ideal) V c 2 t : Vec Ideal S1x512 .f32) (ix2 0 p) = rd (s := S1x512) (V c main_v31) (ix2 0 p) := by
  obtain ⟨_, _, _, _, _, e0, e1, _⟩ := idx1 t
  show V c main_v31 (((cfg1.win 2).blk t).view.emb (ix2 0 p)) = V c main_v31 (ix2 0 p)
  refine congrArg (V c main_v31) (funext fun a => Fin.ext ?_)
  match a with
  | ⟨0, _⟩ => show win1_2.index t (0 : Fin 2) * 1 + 1 * 0 = 0; omega
  | ⟨1, _⟩ => show win1_2.index t (1 : Fin 2) * 512 + 1 * p.val = p.val; omega

/-- The scale block at point `t`: rows `2000 t … 2000 t + 1999` of the scale column. -/
theorem blk1_3 (t : Fin cfg1.N) (r : Fin 2000) (n : Fin 50000) (hn : n.val = t.val * 2000 + r.val) :
    (iblk1 (F := Ideal) V c 3 t : Vec Ideal S2000x1 .f32) (ix2 r 0) = rd (s := S50000x1) (V c main_v16) (ix2 n 0) := by
  obtain ⟨_, _, _, _, _, _, _, e0, e1, _⟩ := idx1 t
  show V c main_v16 (((cfg1.win 3).blk t).view.emb (ix2 r 0)) = V c main_v16 (ix2 n 0)
  refine congrArg (V c main_v16) (funext fun a => Fin.ext ?_)
  match a with
  | ⟨0, _⟩ => show win1_3.index t (0 : Fin 2) * 2000 + 1 * r.val = n.val; omega
  | ⟨1, _⟩ => show win1_3.index t (1 : Fin 2) * 1 + 1 * 0 = 0; omega

/-- The first bias block is the whole bias row. -/
theorem blk1_4 (t : Fin cfg1.N) (k : Fin 128) :
    (iblk1 (F := Ideal) V c 4 t : Vec Ideal S1x128 .f32) (ix2 0 k) = rd (s := S1x128) (V c main_v30) (ix2 0 k) := by
  obtain ⟨_, _, _, _, _, _, _, _, _, e0, e1, _⟩ := idx1 t
  show V c main_v30 (((cfg1.win 4).blk t).view.emb (ix2 0 k)) = V c main_v30 (ix2 0 k)
  refine congrArg (V c main_v30) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

/-- WHAT POINT `t` WRITES BACK is block `t` of that function of the region's starting buffers. -/
theorem flushed1_eq (t : Fin cfg1.N) :
    (dat1 (F := Ideal) V c).flushed 5 t = ((cfg1.win 5).blk t).view.read (Elt Ideal)
      (decOut (V c main_v29) (V c main_arg3) (V c main_v31) (V c main_v16) (V c main_v30)) := by
  show (cfg1.win 5).cut (grid1.coords t) ((dat1 V c).after 5 t) = _
  rw [after1_5]
  unfold out1_5
  rw [View.canon_unit_zero zero_offsets1]
  simp only [View.ld_unit_zero (S := S2000x128) zero_offsets1, View.ld_unit_zero (S := S128x512) zero_offsets1,
    View.ld_unit_zero (S := S1x512) zero_offsets1, View.ld_unit_zero (S := S2000x1) zero_offsets1,
    View.ld_unit_zero (S := S1x128) zero_offsets1]
  obtain ⟨ht, _, _, _, _, _, _, _, _, _, _, e0, e1⟩ := idx1 t
  refine funext (α := S2000x512.Idx) fun j => ?_
  obtain ⟨r, p, rfl⟩ : ∃ (r : Fin 2000) (p : Fin 512), j = ix2 r p := ⟨j 0, j 1, eq_ix2 j⟩
  have hn : t.val * 2000 + r.val < 50000 := by have := r.isLt; omega
  refine (dec_pay (iblk1 V c 0 t) (iblk1 V c 3 t) (iblk1 V c 4 t) (iblk1 V c 1 t) (iblk1 V c 2 t) r p).trans ?_
  refine decOut_of (V c main_v29) (V c main_arg3) (V c main_v31) (V c main_v16) (V c main_v30) _ _ _
    (((cfg1.win 5).blk t).view.emb (ix2 r p)) ⟨t.val * 2000 + r.val, hn⟩ p ?_
    (fun k => congrArg₂ (· + ·) (congrArg₂ (· * ·) (blk1_0 V c t r k _ rfl) (blk1_3 V c t r _ rfl)) (blk1_4 V c t k))
    (blk1_1 V c t) (blk1_2 V c t p)
  funext a
  apply Fin.ext
  match a with
  | ⟨0, _⟩ => show win1_5.index t (0 : Fin 2) * 2000 + 1 * r.val = t.val * 2000 + r.val; omega
  | ⟨1, _⟩ => show win1_5.index t (1 : Fin 2) * 512 + 1 * p.val = p.val; omega

/-- An index of the output array is in point `t`'s block iff each coordinate is in the block's range on its axis. -/
theorem mem_blk1 (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v32).slice (win1_5.rect t)).set ↔ _
  rw [View.set_slice_whole, Rect.mem_set_unit]
  exact Iff.rfl

/-- Every index of the output array is in some point's block: row `r` in the block of point `r / 2000`. -/
theorem cover1 (i : S50000x512.Idx) : ∃ t : Fin cfg1.N, (cfg1.win 5).flush t = true ∧ i ∈ ((cfg1.win 5).blk t).view.set := by
  have h0 : (i 0).val < 50000 := (i 0).isLt
  have h1 : (i 1).val < 512 := (i 1).isLt
  have hlt : (i 0).val / 2000 < cfg1.N := by show (i 0).val / 2000 < 25; omega
  obtain ⟨_, _, _, _, _, _, _, _, _, _, _, e0, e1⟩ := idx1 ⟨(i 0).val / 2000, hlt⟩
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hlt⟩ (1 : Fin 2) * 512 ≤ (i 1).val ∧ (i 1).val < win1_5.index ⟨(i 0).val / 2000, hlt⟩ (1 : Fin 2) * 512 + 512
    rw [e1]; omega

/-- THE ARRAY after the region: that function of the region's starting buffers, everywhere. -/
theorem final1 : (dat1 (F := Ideal) V c).arrAt 5 cfg1.N
    = decOut (V c main_v29) (V c main_arg3) (V c main_v31) (V c main_v16) (V c main_v30) :=
  (dat1 (F := Ideal) V c).arrAt_eq_of_cover 5 (decOut (V c main_v29) (V c main_arg3) (V c main_v31) (V c main_v16) (V c main_v30))
    (fun t _ => flushed1_eq V c t) cover1

/-- The second region's output, entry by entry: the decoded entry of the scaled-and-shifted row. -/
theorem region1_value (n : Fin 50000) (p : Fin 512) :
    rd (s := S50000x512) ((dat1 (F := Ideal) V c).arrAt 5 cfg1.N) (ix2 n p)
      = decv (fun k => (rd (s := S50000x128) (V c main_v29)) (ix2 n k) * (rd (s := S50000x1) (V c main_v16)) (ix2 n 0)
                        + (rd (s := S1x128) (V c main_v30)) (ix2 0 k))
          (rd (s := S128x512) (V c main_arg3)) ((rd (s := S1x512) (V c main_v31)) (ix2 0 p)) p :=
  congrFun (final1 V c) (ix2 n p)

end Cert.KernelIdeal.RegionValue

end
-- ==== Proof.KValue.lean ====
/-
  What the idealized kernel program leaves in its result buffer, entry by entry.

  The program computes, from the edge list alone, the receivers `colv`, the senders `rowv`, every node's
  in-degree and its inverse square root `dinvv` (zero where the degree is zero). The encoder's grid then writes,
  row block by row block, the array whose entry `(a, b)` is the encoded entry scaled by node `a`'s factor
  (`Cert.Gcn.hpA` of `Cert.Gcn.encA`). The host gathers the senders' rows of that array and accumulates them at
  the receivers. The decoder's grid scales row `n` of the accumulated array by node `n`'s factor, adds the bias,
  and decodes: entry `(n, p)` of the result is `Cert.Gcn.outK`.

  Each stretch of host operations is read once from arbitrary contents (what it writes as the operations' term of
  what it reads; every other buffer untouched); the contents at a region's entry are those readings chained from
  the launch memory; a region changes only its output array, whose entries are Proof/Enc.lean's and
  Proof/Dec.lean's closed forms. The casts `[a] → [a, 1]` and `[b] → [1, b]` of the factor vector and the bias
  vectors read the vector's entry at the non-unit coordinate.
-/
import proofs.«162178_j36464272343198_2_alg».proof.Proof.Gen.KernelIdeal.Frame
import proofs.«162178_j36464272343198_2_alg».proof.Proof.Spec
import proofs.«162178_j36464272343198_2_alg».proof.Proof.LibKeepdims
import proofs.«162178_j36464272343198_2_alg».proof.Proof.Enc
import proofs.«162178_j36464272343198_2_alg».proof.Proof.Dec
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.TcCoe Idealize.ShloMosaic.StableHlo
open Idealize.SL.Sem Idealize.ShloMosaic.ValueIdx Cert.Gcn

/-! ## The integer side and the degree factors: the printed operations of the edge list, named -/

/-- The receivers: the edge list's second row, then every node once (its self loop). -/
def colv (ei : IVec S2x640000 32) : IVec S690000 32 :=
  concatenate S690000 0 [⟨S640000, (shapeCast _ (extractStridedSlice S1x640000 ![1, 0] ei slices_S2x640000_S1x640000_1_0) shapeCasts_S1x640000_S640000)⟩, ⟨S50000, (iotaInDim S50000 32 0)⟩] concatenates_S640000_S50000_S690000_d0
/-- The senders: the edge list's first row, then every node once. -/
def rowv (ei : IVec S2x640000 32) : IVec S690000 32 :=
  concatenate S690000 0 [⟨S640000, (shapeCast _ (extractStridedSlice S1x640000 ![0, 0] ei slices_S2x640000_S1x640000_0_0) shapeCasts_S1x640000_S640000)⟩, ⟨S50000, (iotaInDim S50000 32 0)⟩] concatenates_S640000_S50000_S690000_d0
/-- An index vector as the one-column array a scatter or a gather reads. -/
def raw (v : IVec S690000 32) : IVec S690000x1 32 := broadcastInDim S690000x1 ![0] bcast_S690000_S690000x1_0 v
/-- The same after a negative index has had the node count added (an index counted from the end). -/
def nrm (v : IVec S690000 32) : IVec S690000x1 32 :=
  broadcastInDim S690000x1 ![0] bcast_S690000_S690000x1_0 (select (cmpi .slt v (broadcastInDim S690000 ![] bcast_S_S690000 (constantI S_ 32 0#32))) (addi v (broadcastInDim S690000 ![] bcast_S_S690000 (constantI S_ 32 50000#32))) v)
/-- Every node's in-degree: ones accumulated at the receivers. -/
def degv (ei : IVec S2x640000 32) : FVec Ideal S50000 .f32 :=
  Host.scatterAdd scatter_S50000_S690000x1_S690000_n_0_0_1 (broadcastInDim S50000 ![] bcast_S_S50000 (constant S_ .f32 0x00000000#32)) (raw (colv ei)) (broadcastInDim S690000 ![] bcast_S_S690000 (constant S_ .f32 0x3F800000#32))
/-- Its inverse square root where the degree is positive, zero elsewhere. -/
def dinvv (ei : IVec S2x640000 32) : FVec Ideal S50000 .f32 :=
  select (cmpf (F := Ideal) .ogt (degv ei) (broadcastInDim S50000 ![] bcast_S_S50000 (constant S_ .f32 0x00000000#32))) (Host.rsqrt (degv ei)) (broadcastInDim S50000 ![] bcast_S_S50000 (constant S_ .f32 0x00000000#32))

/-- The zero vector the degrees are compared with. -/
abbrev zeros50000 : FVec Ideal S50000 .f32 := broadcastInDim S50000 ![] bcast_S_S50000 (constant S_ .f32 0x00000000#32)

/-! ## Each stretch of host operations, from arbitrary contents `V`: what it writes, and what it leaves alone -/

section Stretches
variable (V : Valuation τ sig (Elt Ideal))

theorem s0_v3 : StableHlo.after hostOps0 V (Proc.devRef .tc main_v3) = rowv (V (Proc.devRef .tc main_arg6)) := by
  after_results; rfl
theorem s0_v6 : StableHlo.after hostOps0 V (Proc.devRef .tc main_v6) = colv (V (Proc.devRef .tc main_arg6)) := by
  after_results; rfl
theorem s0_v12 : StableHlo.after hostOps0 V (Proc.devRef .tc main_v12) = cmpf (F := Ideal) .ogt (degv (V (Proc.devRef .tc main_arg6))) zeros50000 := by
  after_results; rfl
theorem s0_v13 : StableHlo.after hostOps0 V (Proc.devRef .tc main_v13) = Host.rsqrt (degv (V (Proc.devRef .tc main_arg6))) := by
  after_results; rfl
theorem s0_v14 : StableHlo.after hostOps0 V (Proc.devRef .tc main_v14) = zeros50000 := by
  after_results
theorem s0_arg0 : StableHlo.after hostOps0 V (Proc.devRef .tc main_arg0) = V (Proc.devRef .tc main_arg0) := by after_results
theorem s0_arg1 : StableHlo.after hostOps0 V (Proc.devRef .tc main_arg1) = V (Proc.devRef .tc main_arg1) := by after_results
theorem s0_arg2 : StableHlo.after hostOps0 V (Proc.devRef .tc main_arg2) = V (Proc.devRef .tc main_arg2) := by after_results
theorem s0_arg3 : StableHlo.after hostOps0 V (Proc.devRef .tc main_arg3) = V (Proc.devRef .tc main_arg3) := by after_results
theorem s0_arg4 : StableHlo.after hostOps0 V (Proc.devRef .tc main_arg4) = V (Proc.devRef .tc main_arg4) := by after_results
theorem s0_arg5 : StableHlo.after hostOps0 V (Proc.devRef .tc main_arg5) = V (Proc.devRef .tc main_arg5) := by after_results

theorem s1_v15 : StableHlo.after hostOps0_1 V (Proc.devRef .tc main_v15) = select (V (Proc.devRef .tc main_v12)) (V (Proc.devRef .tc main_v13)) (V (Proc.devRef .tc main_v14)) := by
  after_results; rfl
theorem s1_v3 : StableHlo.after hostOps0_1 V (Proc.devRef .tc main_v3) = V (Proc.devRef .tc main_v3) := by after_results
theorem s1_v6 : StableHlo.after hostOps0_1 V (Proc.devRef .tc main_v6) = V (Proc.devRef .tc main_v6) := by after_results
theorem s1_arg0 : StableHlo.after hostOps0_1 V (Proc.devRef .tc main_arg0) = V (Proc.devRef .tc main_arg0) := by after_results
theorem s1_arg1 : StableHlo.after hostOps0_1 V (Proc.devRef .tc main_arg1) = V (Proc.devRef .tc main_arg1) := by after_results
theorem s1_arg2 : StableHlo.after hostOps0_1 V (Proc.devRef .tc main_arg2) = V (Proc.devRef .tc main_arg2) := by after_results
theorem s1_arg3 : StableHlo.after hostOps0_1 V (Proc.devRef .tc main_arg3) = V (Proc.devRef .tc main_arg3) := by after_results
theorem s1_arg4 : StableHlo.after hostOps0_1 V (Proc.devRef .tc main_arg4) = V (Proc.devRef .tc main_arg4) := by after_results
theorem s1_arg5 : StableHlo.after hostOps0_1 V (Proc.devRef .tc main_arg5) = V (Proc.devRef .tc main_arg5) := by after_results

theorem s2_v16 : StableHlo.after hostOps0_2 V (Proc.devRef .tc main_v16) = shapeCast S50000x1 (V (Proc.devRef .tc main_v15)) shapeCasts_S50000_S50000x1 := by
  after_results; rfl
theorem s2_v17 : StableHlo.after hostOps0_2 V (Proc.devRef .tc main_v17) = shapeCast S1x128 (V (Proc.devRef .tc main_arg2)) shapeCasts_S128_S1x128 := by
  after_results; rfl
theorem s2_v3 : StableHlo.after hostOps0_2 V (Proc.devRef .tc main_v3) = V (Proc.devRef .tc main_v3) := by after_results
theorem s2_v6 : StableHlo.after hostOps0_2 V (Proc.devRef .tc main_v6) = V (Proc.devRef .tc main_v6) := by after_results
theorem s2_arg0 : StableHlo.after hostOps0_2 V (Proc.devRef .tc main_arg0) = V (Proc.devRef .tc main_arg0) := by after_results
theorem s2_arg1 : StableHlo.after hostOps0_2 V (Proc.devRef .tc main_arg1) = V (Proc.devRef .tc main_arg1) := by after_results
theorem s2_arg3 : StableHlo.after hostOps0_2 V (Proc.devRef .tc main_arg3) = V (Proc.devRef .tc main_arg3) := by after_results
theorem s2_arg4 : StableHlo.after hostOps0_2 V (Proc.devRef .tc main_arg4) = V (Proc.devRef .tc main_arg4) := by after_results
theorem s2_arg5 : StableHlo.after hostOps0_2 V (Proc.devRef .tc main_arg5) = V (Proc.devRef .tc main_arg5) := by after_results

theorem s3_v29 : StableHlo.after hostOps1 V (Proc.devRef .tc main_v29)
    = Host.scatterAdd (F := Ideal) scatter_S50000x128_S690000x1_S690000x128_1_0_0_1
        (broadcastInDim S50000x128 ![] bcast_S_S50000x128 (constant (F := Ideal) S_ .f32 0x00000000#32))
        (raw (V (Proc.devRef .tc main_v6)))
        (extf (F := Ideal) .f32 (Host.gather gather_S50000x128_S690000x1_S690000x128_1_0_n_n_0_1_1128 (V (Proc.devRef .tc main_v18)) (nrm (V (Proc.devRef .tc main_v3)))) bitsLt_bf16_f32) := by
  after_results; rfl
theorem s3_v30 : StableHlo.after hostOps1 V (Proc.devRef .tc main_v30) = shapeCast S1x128 (V (Proc.devRef .tc main_arg5)) shapeCasts_S128_S1x128 := by
  after_results; rfl
theorem s3_v31 : StableHlo.after hostOps1 V (Proc.devRef .tc main_v31) = shapeCast S1x512 (V (Proc.devRef .tc main_arg4)) shapeCasts_S512_S1x512 := by
  after_results; rfl
theorem s3_v16 : StableHlo.after hostOps1 V (Proc.devRef .tc main_v16) = V (Proc.devRef .tc main_v16) := by after_results
theorem s3_arg3 : StableHlo.after hostOps1 V (Proc.devRef .tc main_arg3) = V (Proc.devRef .tc main_arg3) := by after_results
end Stretches

/-! ## The contents at the two regions' entries, buffer by buffer -/

variable (m : (ℓ : Loc nD τ sig) → Buf (Elt Ideal) ℓ) (ρ : Dev nD → PrngReg) (c : Dev nD)

/-- The edge list as launched. -/
abbrev ei : IVec S2x640000 32 := m ((c : Thread nD τ).loc main_arg6)

theorem W3_v3 : W3 m ρ c (Proc.devRef .tc main_v3) = rowv (ei m c) :=
  (s2_v3 (W2 m ρ c)).trans ((s1_v3 (W1 m ρ c)).trans (s0_v3 (W0 m ρ c)))
theorem W3_v6 : W3 m ρ c (Proc.devRef .tc main_v6) = colv (ei m c) :=
  (s2_v6 (W2 m ρ c)).trans ((s1_v6 (W1 m ρ c)).trans (s0_v6 (W0 m ρ c)))
theorem W2_v15 : W2 m ρ c (Proc.devRef .tc main_v15) = dinvv (ei m c) := by
  refine (s1_v15 (W1 m ρ c)).trans ?_
  rw [show W1 m ρ c (Proc.devRef .tc main_v12) = _ from s0_v12 (W0 m ρ c),
    show W1 m ρ c (Proc.devRef .tc main_v13) = _ from s0_v13 (W0 m ρ c),
    show W1 m ρ c (Proc.devRef .tc main_v14) = _ from s0_v14 (W0 m ρ c)]
  rfl
theorem W3_v16 : W3 m ρ c (Proc.devRef .tc main_v16) = shapeCast S50000x1 (dinvv (ei m c)) shapeCasts_S50000_S50000x1 := by
  refine (s2_v16 (W2 m ρ c)).trans ?_
  rw [W2_v15 m ρ c]
theorem W3_v17 : W3 m ρ c (Proc.devRef .tc main_v17) = shapeCast S1x128 (m ((c : Thread nD τ).loc main_arg2)) shapeCasts_S128_S1x128 := by
  refine (s2_v17 (W2 m ρ c)).trans ?_
  rw [show W2 m ρ c (Proc.devRef .tc main_arg2) = _ from (s1_arg2 (W1 m ρ c)).trans (s0_arg2 (W0 m ρ c))]
theorem W3_arg0 : W3 m ρ c (Proc.devRef .tc main_arg0) = (m ((c : Thread nD τ).loc main_arg0)) :=
  (s2_arg0 (W2 m ρ c)).trans ((s1_arg0 (W1 m ρ c)).trans (s0_arg0 (W0 m ρ c)))
theorem W3_arg1 : W3 m ρ c (Proc.devRef .tc main_arg1) = (m ((c : Thread nD τ).loc main_arg1)) :=
  (s2_arg1 (W2 m ρ c)).trans ((s1_arg1 (W1 m ρ c)).trans (s0_arg1 (W0 m ρ c)))
theorem W3_arg3 : W3 m ρ c (Proc.devRef .tc main_arg3) = (m ((c : Thread nD τ).loc main_arg3)) :=
  (s2_arg3 (W2 m ρ c)).trans ((s1_arg3 (W1 m ρ c)).trans (s0_arg3 (W0 m ρ c)))
theorem W3_arg4 : W3 m ρ c (Proc.devRef .tc main_arg4) = (m ((c : Thread nD τ).loc main_arg4)) :=
  (s2_arg4 (W2 m ρ c)).trans ((s1_arg4 (W1 m ρ c)).trans (s0_arg4 (W0 m ρ c)))
theorem W3_arg5 : W3 m ρ c (Proc.devRef .tc main_arg5) = (m ((c : Thread nD τ).loc main_arg5)) :=
  (s2_arg5 (W2 m ρ c)).trans ((s1_arg5 (W1 m ρ c)).trans (s0_arg5 (W0 m ρ c)))

/-- Region 0 writes only its output array: a buffer that is none of its windows' arrays is as it found it … -/
theorem W4_v3 : W4 m ρ c (Proc.devRef .tc main_v3) = rowv (ei m c) := (W4_of_ne m ρ c main_v3 (by decide)).trans (W3_v3 m ρ c)
theorem W4_v6 : W4 m ρ c (Proc.devRef .tc main_v6) = colv (ei m c) := (W4_of_ne m ρ c main_v6 (by decide)).trans (W3_v6 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
/-- … and so is an input window's array. -/
theorem W4_v16 : W4 m ρ c (Proc.devRef .tc main_v16) = shapeCast S50000x1 (dinvv (ei m c)) shapeCasts_S50000_S50000x1 :=
  ((W4_arr m ρ c 3).trans (((dat0 (V3 m ρ) c).arrAt_in 3 rfl _).trans (A_eq0 (V3 m ρ) c 3))).trans (W3_v16 m ρ c)

/-! ## Region 0's output array, entry by entry: the encoded row scaled by the node's factor -/

/-- Entry `(a, b)` of the encoder's output array after its 25 write-backs. -/
theorem W4_v18_entry (a : Fin 50000) (b : Fin 128) :
    rd (s := S50000x128) (W4 m ρ c (Proc.devRef .tc main_v18)) (ix2 a b)
      = hpA (encA (rd (s := S50000x512) (m ((c : Thread nD τ).loc main_arg0))) (rd (s := S512x128) (m ((c : Thread nD τ).loc main_arg1))) (rd (s := S128) (m ((c : Thread nD τ).loc main_arg2))))
          (dinvv (ei m c)) (ix2 a b) := by
  rw [show W4 m ρ c (Proc.devRef .tc main_v18) = (dat0 (V3 m ρ) c).arrAt 4 cfg0.N from W4_arr m ρ c 4]
  refine (RegionValue.region0_value (V3 m ρ) c a b).trans ?_
  rw [show V3 m ρ c main_arg0 = _ from W3_arg0 m ρ c, show V3 m ρ c main_arg1 = _ from W3_arg1 m ρ c,
    show V3 m ρ c main_v17 = _ from W3_v17 m ρ c, show V3 m ρ c main_v16 = _ from W3_v16 m ρ c]
  show encv _ _ (shapeCast S1x128 _ shapeCasts_S128_S1x128 (ix2 (0 : Fin 1) b)) b * shapeCast S50000x1 _ shapeCasts_S50000_S50000x1 (ix2 a (0 : Fin 1)) = _
  rw [shapeCast_a_1a_apply, Cert.LibKeepdims.shapeCast_a_a1_apply]
  rfl

/-- The same as an array. -/
theorem W4_v18 :
    rd (s := S50000x128) (W4 m ρ c (Proc.devRef .tc main_v18))
      = hpA (encA (rd (s := S50000x512) (m ((c : Thread nD τ).loc main_arg0))) (rd (s := S512x128) (m ((c : Thread nD τ).loc main_arg1))) (rd (s := S128) (m ((c : Thread nD τ).loc main_arg2))))
          (dinvv (ei m c)) := by
  funext y
  obtain ⟨a, b, rfl⟩ : ∃ (a : Fin 50000) (b : Fin 128), y = ix2 a b := ⟨y 0, y 1, eq_ix2 y⟩
  exact W4_v18_entry m ρ c a b

/-! ## Region 1's entry contents -/

/-- The aggregated rows: the senders' scaled rows, gathered, accumulated at the receivers. -/
theorem V5_v29 :
    rd (s := S50000x128) (V5 m ρ c main_v29)
      = Ideal.hostScatterAdd sd2 (fun _ => 0) (raw (colv (ei m c)))
          (Host.gather gd2 (hpA (encA (rd (s := S50000x512) (m ((c : Thread nD τ).loc main_arg0))) (rd (s := S512x128) (m ((c : Thread nD τ).loc main_arg1))) (rd (s := S128) (m ((c : Thread nD τ).loc main_arg2)))) (dinvv (ei m c)))
            (nrm (rowv (ei m c)))) := by
  have h := s3_v29 (W4 m ρ c)
  rw [W4_v6 m ρ c, W4_v3 m ρ c] at h
  refine (show rd (s := S50000x128) (V5 m ρ c main_v29) = _ from h).trans ?_
  have hz : (broadcastInDim S50000x128 ![] bcast_S_S50000x128 (constant (F := Ideal) S_ .f32 0x00000000#32) : S50000x128.Idx → EReal) = fun _ => 0 :=
    funext fun _ => Ideal.ofBits_zero_f32
  have hu : (extf (F := Ideal) .f32 (Host.gather gather_S50000x128_S690000x1_S690000x128_1_0_n_n_0_1_1128 (W4 m ρ c (Proc.devRef .tc main_v18)) (nrm (rowv (ei m c)))) bitsLt_bf16_f32 : S690000x128.Idx → EReal)
      = Host.gather gd2 (hpA (encA (rd (s := S50000x512) (m ((c : Thread nD τ).loc main_arg0))) (rd (s := S512x128) (m ((c : Thread nD τ).loc main_arg1))) (rd (s := S128) (m ((c : Thread nD τ).loc main_arg2)))) (dinvv (ei m c))) (nrm (rowv (ei m c))) := by
    rw [← W4_v18 m ρ c]
    rfl
  show Ideal.hostScatterAdd scatter_S50000x128_S690000x1_S690000x128_1_0_0_1 _ _ _ = _
  rw [hz, hu]
  rfl
theorem V5_v16 : V5 m ρ c main_v16 = shapeCast S50000x1 (dinvv (ei m c)) shapeCasts_S50000_S50000x1 :=
  (s3_v16 (W4 m ρ c)).trans (W4_v16 m ρ c)
theorem V5_v30 : V5 m ρ c main_v30 = shapeCast S1x128 (m ((c : Thread nD τ).loc main_arg5)) shapeCasts_S128_S1x128 := by
  refine (s3_v30 (W4 m ρ c)).trans ?_
  rw [W4_arg5 m ρ c]
theorem V5_v31 : V5 m ρ c main_v31 = shapeCast S1x512 (m ((c : Thread nD τ).loc main_arg4)) shapeCasts_S512_S1x512 := by
  refine (s3_v31 (W4 m ρ c)).trans ?_
  rw [W4_arg4 m ρ c]
theorem V5_arg3 : V5 m ρ c main_arg3 = (m ((c : Thread nD τ).loc main_arg3)) :=
  (s3_arg3 (W4 m ρ c)).trans (W4_arg3 m ρ c)

/-! ## The result -/

/-- Entry `(n, p)` of the decoder's output array after its 25 write-backs — the program's result — is the kernel
    side's formula of the seven arguments. -/
theorem result_entry (n : Fin 50000) (p : Fin 512) :
    rd (s := S50000x512) (W6 m ρ c (Proc.devRef .tc main_v32)) (ix2 n p)
      = outK (rd (s := S50000x512) (m ((c : Thread nD τ).loc main_arg0))) (rd (s := S512x128) (m ((c : Thread nD τ).loc main_arg1))) (rd (s := S128) (m ((c : Thread nD τ).loc main_arg2)))
          (rd (s := S128x512) (m ((c : Thread nD τ).loc main_arg3))) (rd (s := S512) (m ((c : Thread nD τ).loc main_arg4))) (rd (s := S128) (m ((c : Thread nD τ).loc main_arg5)))
          (dinvv (ei m c)) (nrm (rowv (ei m c))) (raw (colv (ei m c))) n p := by
  rw [show W6 m ρ c (Proc.devRef .tc main_v32) = (dat1 (V5 m ρ) c).arrAt 5 cfg1.N from W6_arr m ρ c 5]
  refine (RegionValue.region1_value (V5 m ρ) c n p).trans ?_
  rw [show rd (s := S50000x128) (V5 m ρ c main_v29) = _ from V5_v29 m ρ c, V5_v16 m ρ c, V5_v30 m ρ c, V5_v31 m ρ c, V5_arg3 m ρ c]
  unfold outK msgK
  have hcol : ∀ k : Fin 128, rd (s := S1x128) (shapeCast S1x128 (m ((c : Thread nD τ).loc main_arg5)) shapeCasts_S128_S1x128) (ix2 (0 : Fin 1) k) = rd (s := S128) (m ((c : Thread nD τ).loc main_arg5)) (ix1 k) :=
    fun k => shapeCast_a_1a_apply _ _ 0 k
  have hb : rd (s := S1x512) (shapeCast S1x512 (m ((c : Thread nD τ).loc main_arg4)) shapeCasts_S512_S1x512) (ix2 (0 : Fin 1) p) = rd (s := S512) (m ((c : Thread nD τ).loc main_arg4)) (ix1 p) :=
    shapeCast_a_1a_apply _ _ 0 p
  have hd : rd (s := S50000x1) (shapeCast S50000x1 (dinvv (ei m c)) shapeCasts_S50000_S50000x1) (ix2 n (0 : Fin 1)) = dinvv (ei m c) (ix1 n) :=
    Cert.LibKeepdims.shapeCast_a_a1_apply _ _ n 0
  simp only [hcol, hb, hd]

/-- The kernel side's result array: the formula at every entry. -/
def outArr : Buf (Elt Ideal) ((c : Thread nD τ).loc main_v32) :=
  fun i => outK (rd (s := S50000x512) (m ((c : Thread nD τ).loc main_arg0))) (rd (s := S512x128) (m ((c : Thread nD τ).loc main_arg1))) (rd (s := S128) (m ((c : Thread nD τ).loc main_arg2)))
      (rd (s := S128x512) (m ((c : Thread nD τ).loc main_arg3))) (rd (s := S512) (m ((c : Thread nD τ).loc main_arg4))) (rd (s := S128) (m ((c : Thread nD τ).loc main_arg5)))
      (dinvv (ei m c)) (nrm (rowv (ei m c))) (raw (colv (ei m c))) (i 0 : Fin 50000) (i 1 : Fin 512)

/-- What the segments' fold leaves in the result buffer is that array. -/
theorem result_eq : W6 m ρ c (Proc.devRef .tc main_v32) = outArr m c := by
  funext i
  obtain ⟨n, p, rfl⟩ : ∃ (n : Fin 50000) (p : Fin 512), i = ix2 n p := ⟨i 0, i 1, eq_ix2 i⟩
  exact result_entry m ρ c n p

end Cert.KernelIdeal.KValue

end
-- ==== Proof.lean ====
/-
  The certificate's claims, assembled.

  Frames. The two kernel programs' frames are the generated ones. The reference has no kernel: its frame is its
  run (Proof/RefRun.lean) with the result dropped.

  Idealization. The claim states one conjunct per rewrite the ideal pass applied when it printed the idealized
  kernel; its ledger for this kernel is empty, so the statement to prove (Defs.lean) is `True`.

  Equality at the ideal instance. Both programs compute, from the edge list alone, the same receivers, senders
  and per-node factors `d` (the inverse square root of the in-degree, zero where it is zero): the same integer and
  float operations, so the same terms. The kernel side's result entry is `Cert.Gcn.outK` (Proof/KValue.lean over
  Proof/KRun.lean): each encoded row is scaled by its own node's factor, the rows arriving at node `n` are summed,
  and the sum is scaled by `d n`. The reference's is `Cert.Gcn.outR` (Proof/RefIs.lean): each arriving row is scaled
  by `d sender · d n` before the sum. A factor that is non-negative and finite distributes over any sum of extended
  reals, an update accumulated at row `n` has receiver `n`, and a receiver index that is not negative is its own
  wrapped form: Proof/Law.lean, `Cert.Gcn.out_eq`. Nothing here needs the inputs to be finite.
-/
import proofs.«162178_j36464272343198_2_alg».proof.Defs
import proofs.«162178_j36464272343198_2_alg».proof.Proof.Gen.Kernel
import proofs.«162178_j36464272343198_2_alg».proof.Proof.Gen.Kernel.Frame
import proofs.«162178_j36464272343198_2_alg».proof.Proof.Gen.KernelIdeal
import proofs.«162178_j36464272343198_2_alg».proof.Proof.Gen.KernelIdeal.Frame
import proofs.«162178_j36464272343198_2_alg».proof.Proof.Gen.ReferenceIdeal
import proofs.«162178_j36464272343198_2_alg».proof.Proof.Gen.Pre_finite_inputs
import proofs.«162178_j36464272343198_2_alg».proof.Proof.RefRun
import proofs.«162178_j36464272343198_2_alg».proof.Proof.RefRead
import proofs.«162178_j36464272343198_2_alg».proof.Proof.Law
import proofs.«162178_j36464272343198_2_alg».proof.Proof.RefIs
import proofs.«162178_j36464272343198_2_alg».proof.Proof.KRun
import proofs.«162178_j36464272343198_2_alg».proof.Proof.KValue
import Idealize.ShloMosaic.Adequacy
import Idealize.ShloMosaic.Init

noncomputable section

namespace Cert.Proof

open Idealize.ShloMosaic Idealize.ShloMosaic.ValueIdx Idealize.SL.Sem Cert.Gcn

/-! ## The integer side and the factors are one term in both programs -/

/-- The factors: the same scatter of ones at the same receivers, the same comparison, root and select. -/
theorem dinvv_eq (ei : IVec Cert.KernelIdeal.S2x640000 32) :
    Cert.KernelIdeal.KValue.dinvv ei = Cert.ReferenceIdeal.RefValue.dinvv ei := rfl
/-- The senders' start indices: the same slice, join with the self loops, wrap of negatives, one-column cast. -/
theorem ridx_eq (ei : IVec Cert.KernelIdeal.S2x640000 32) :
    Cert.KernelIdeal.KValue.nrm (Cert.KernelIdeal.KValue.rowv ei)
      = Cert.ReferenceIdeal.RefValue.nrm (Cert.ReferenceIdeal.RefValue.rowv ei) := rfl
/-- The receivers' raw indices: the same slice, join with the self loops, one-column cast. -/
theorem cidx_eq (ei : IVec Cert.KernelIdeal.S2x640000 32) :
    Cert.KernelIdeal.KValue.raw (Cert.KernelIdeal.KValue.colv ei)
      = Cert.ReferenceIdeal.RefValue.raw (Cert.ReferenceIdeal.RefValue.colv ei) := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs run, and end with the same result array: the kernel
    side's is `outK` at every entry, the reference's is `outR`, and the two formulas agree. -/
theorem algebraic : Cert.algebraic_KernelIdeal_ReferenceIdeal := by
  intro m ρ m' ρ' _ hagree
  refine ⟨fun c => Cert.KernelIdeal.KValue.outArr m c, ?_, ?_⟩
  · exact (θ_run Cert.KernelIdeal.defs _ _).mono
      (fun _ h c => ⟨(h c).1.trans (Cert.KernelIdeal.KValue.result_eq m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.ValueP.run (F := Ideal) m' ρ')
    funext i
    obtain ⟨n, p, rfl⟩ : ∃ (n : Fin 50000) (p : Fin 512), i = ix2 n p := ⟨i 0, i 1, eq_ix2 i⟩
    refine (Cert.ReferenceIdeal.RefValue.ref_value m' c n p).trans ?_
    rw [(hagree c).1, (hagree c).2.1, (hagree c).2.2.1, (hagree c).2.2.2.1, (hagree c).2.2.2.2.1,
      (hagree c).2.2.2.2.2.1, (hagree c).2.2.2.2.2.2]
    refine (out_eq _ _ _ _ _ _ _ _ _ _ (Cert.ReferenceIdeal.RefValue.dinvv_ok _)
      (fun e => Cert.ReferenceIdeal.RefValue.nrm_raw _ e) n p).symm.trans ?_
    rw [← dinvv_eq, ← ridx_eq, ← cidx_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
